-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x32 : Shape := ⟨2, ![128, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S32x1 1) : IVec S_ 1 :=
  let main_c_5 : IVec S_ 1 := constantI S_ 1 1#1
  let main_v17 : IVec S_ 1 := (fun x v => Host.reduce IntOp.andi x v reducesTo_S32x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x128 .f32) (main_arg1 : IVec S2x3200000 32) (main_arg2 : FVec F S128x32 .f32) (main_arg3 : FVec F S32 .f32) (main_arg4 : FVec F S32x1 .f32) (main_arg5 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x32 .f32 := Host.absf main_arg2
  let main_cst_0 : FVec F S_ .f32 := constant S_ .f32 0x7F800000#32
  let main_v5 : FVec F S128x32 .f32 := broadcastInDim S128x32 ![] bcast_S_S128x32 main_cst_0
  let main_v6 : IVec S128x32 1 := cmpf .olt main_v4 main_v5
  let main_c_1 : IVec S_ 1 := constantI S_ 1 1#1
  let main_v7 : IVec S_ 1 := (fun x v => Host.reduce IntOp.andi x v reducesTo_S128x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x1 .f32 := Host.absf main_arg4
  let main_cst_4 : FVec F S_ .f32 := constant S_ .f32 0x7F800000#32
  let main_v15 : FVec F S32x1 .f32 := broadcastInDim S32x1 ![] bcast_S_S32x1 main_cst_4
  let main_v16 : IVec S32x1 1 := cmpf .olt main_v14 main_v15
  fn_part1 (F := F) main_arg5 main_v13 main_v16
-- ==== Kernel.lean ====
abbrev S100000x128 : Shape := ⟨2, ![100000, 128]⟩
abbrev S2x3200000 : Shape := ⟨2, ![2, 3200000]⟩
abbrev S128x32 : Shape := ⟨2, ![128, 32]⟩
abbrev S32 : Shape := ⟨1, ![32]⟩
abbrev S32x1 : Shape := ⟨2, ![32, 1]⟩
abbrev S1 : Shape := ⟨1, ![1]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x32 : Shape := ⟨2, ![100000, 32]⟩
abbrev S10000x128 : Shape := ⟨2, ![10000, 128]⟩
abbrev S10000x32 : Shape := ⟨2, ![10000, 32]⟩
abbrev S3300000x32 : Shape := ⟨2, ![3300000, 32]⟩
abbrev S1x32 : Shape := ⟨2, ![1, 32]⟩
abbrev S100000x1 : Shape := ⟨2, ![100000, 1]⟩
abbrev S10000x1 : Shape := ⟨2, ![10000, 1]⟩
abbrev S1x1 : Shape := ⟨2, ![1, 1]⟩

abbrev nBuf : Space → Nat
  | .hbm => 87
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x32, .f32⟩
  | .hbm, ⟨3, _⟩ => ⟨S32, .f32⟩
  | .hbm, ⟨4, _⟩ => ⟨S32x1, .f32⟩
  | .hbm, ⟨5, _⟩ => ⟨S1, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S3300000, .i32⟩
  | .hbm, ⟨30, _⟩ => ⟨S3300000, .i1⟩
  | .hbm, ⟨31, _⟩ => ⟨S_, .i32⟩
  | .hbm, ⟨32, _⟩ => ⟨S3300000, .i32⟩
  | .hbm, ⟨33, _⟩ => ⟨S3300000, .i32⟩
  | .hbm, ⟨34, _⟩ => ⟨S3300000, .i32⟩
  | .hbm, ⟨35, _⟩ => ⟨S3300000x1, .i32⟩
  | .hbm, ⟨36, _⟩ => ⟨S3300000, .f32⟩
  | .hbm, ⟨37, _⟩ => ⟨S_, .i32⟩
  | .hbm, ⟨38, _⟩ => ⟨S3300000, .i32⟩
  | .hbm, ⟨39, _⟩ => ⟨S3300000, .i1⟩
  | .hbm, ⟨40, _⟩ => ⟨S_, .i32⟩
  | .hbm, ⟨41, _⟩ => ⟨S3300000, .i32⟩
  | .hbm, ⟨42, _⟩ => ⟨S3300000, .i32⟩
  | .hbm, ⟨43, _⟩ => ⟨S3300000, .i32⟩
  | .hbm, ⟨44, _⟩ => ⟨S3300000x1, .i32⟩
  | .hbm, ⟨45, _⟩ => ⟨S3300000, .f32⟩
  | .hbm, ⟨46, _⟩ => ⟨S3300000, .f32⟩
  | .hbm, ⟨47, _⟩ => ⟨S100000x32, .f32⟩
  | .hbm, ⟨48, _⟩ => ⟨S_, .i32⟩
  | .hbm, ⟨49, _⟩ => ⟨S3300000, .i32⟩
  | .hbm, ⟨50, _⟩ => ⟨S3300000, .i1⟩
  | .hbm, ⟨51, _⟩ => ⟨S_, .i32⟩
  | .hbm, ⟨52, _⟩ => ⟨S3300000, .i32⟩
  | .hbm, ⟨53, _⟩ => ⟨S3300000, .i32⟩
  | .hbm, ⟨54, _⟩ => ⟨S3300000, .i32⟩
  | .hbm, ⟨55, _⟩ => ⟨S3300000x1, .i32⟩
  | .hbm, ⟨56, _⟩ => ⟨S3300000x32, .f32⟩
  | .hbm, ⟨57, _⟩ => ⟨S3300000x1, .f32⟩
  | .hbm, ⟨58, _⟩ => ⟨S3300000x32, .f32⟩
  | .hbm, ⟨59, _⟩ => ⟨S3300000x32, .f32⟩
  | .hbm, ⟨60, _⟩ => ⟨S_, .f32⟩
  | .hbm, ⟨61, _⟩ => ⟨S100000x32, .f32⟩
  | .hbm, ⟨62, _⟩ => ⟨S3300000x1, .i32⟩
  | .hbm, ⟨63, _⟩ => ⟨S100000x32, .f32⟩
  | .hbm, ⟨64, _⟩ => ⟨S1x32, .f32⟩
  | .hbm, ⟨65, _⟩ => ⟨S100000x32, .f32⟩
  | .hbm, ⟨66, _⟩ => ⟨S100000x32, .f32⟩
  | .hbm, ⟨67, _⟩ => ⟨S100000x1, .f32⟩
  | .hbm, ⟨68, _⟩ => ⟨S_, .i32⟩
  | .hbm, ⟨69, _⟩ => ⟨S3300000, .i32⟩
  | .hbm, ⟨70, _⟩ => ⟨S3300000, .i1⟩
  | .hbm, ⟨71, _⟩ => ⟨S_, .i32⟩
  | .hbm, ⟨72, _⟩ => ⟨S3300000, .i32⟩
  | .hbm, ⟨73, _⟩ => ⟨S3300000, .i32⟩
  | .hbm, ⟨74, _⟩ => ⟨S3300000, .i32⟩
  | .hbm, ⟨75, _⟩ => ⟨S3300000x1, .i32⟩
  | .hbm, ⟨76, _⟩ => ⟨S3300000x1, .f32⟩
  | .hbm, ⟨77, _⟩ => ⟨S3300000x1, .f32⟩
  | .hbm, ⟨78, _⟩ => ⟨S3300000x1, .f32⟩
  | .hbm, ⟨79, _⟩ => ⟨S_, .f32⟩
  | .hbm, ⟨80, _⟩ => ⟨S100000x1, .f32⟩
  | .hbm, ⟨81, _⟩ => ⟨S3300000x1, .i32⟩
  | .hbm, ⟨82, _⟩ => ⟨S100000x1, .f32⟩
  | .hbm, ⟨83, _⟩ => ⟨S1x1, .f32⟩
  | .hbm, ⟨84, _⟩ => ⟨S100000x1, .f32⟩
  | .hbm, ⟨85, _⟩ => ⟨S100000x1, .f32⟩
  | .hbm, ⟨86, _⟩ => ⟨S100000, .f32⟩
  | .local _ .vmem, ⟨0, _⟩ => ⟨S10000x128, .f32⟩
  | .local _ .vmem, ⟨1, _⟩ => ⟨S10000x128, .f32⟩
  | .local _ .vmem, ⟨2, _⟩ => ⟨S128x32, .f32⟩
  | .local _ .vmem, ⟨3, _⟩ => ⟨S10000x32, .f32⟩
  | .local _ .vmem, ⟨4, _⟩ => ⟨S10000x32, .f32⟩
  | .local _ .vmem, ⟨5, _⟩ => ⟨S10000x32, .f32⟩
  | .local _ .vmem, ⟨6, _⟩ => ⟨S10000x32, .f32⟩
  | .local _ .vmem, ⟨7, _⟩ => ⟨S32x1, .f32⟩
  | .local _ .vmem, ⟨8, _⟩ => ⟨S10000x1, .f32⟩
  | .local _ .vmem, ⟨9, _⟩ => ⟨S10000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_c : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_c_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_c_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_9 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_c_10 : Ref sig .tc := ⟨.hbm, 68, rfl⟩
abbrev main_v50 : Ref sig .tc := ⟨.hbm, 69, rfl⟩
abbrev main_v51 : Ref sig .tc := ⟨.hbm, 70, rfl⟩
abbrev main_c_11 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_12 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S10000x32_S10000x32_0_0 : ∀ a, (![0, 0] : Fin 2 → Nat) a + S10000x32.size a ≤ S10000x32.size a
  h_S10000x32 : 0 < S10000x32.numel
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  shapeCasts_S10000x32_S10000x32 : S10000x32.ShapeCasts S10000x32
  inb_S32x1_S32x1_0_0 : ∀ a, (![0, 0] : Fin 2 → Nat) a + S32x1.size a ≤ S32x1.size a
  h_S32x1 : 0 < S32x1.numel
  inb_S10000x1_S10000x1_0_0 : ∀ a, (![0, 0] : Fin 2 → Nat) a + S10000x1.size a ≤ S10000x1.size a
  h_S10000x1 : 0 < S10000x1.numel
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x128_S128x32_S10000x32_1_0_0_1_n_n_wf : DotDims.WF S10000x128 S128x32 S10000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S10000x32_S32x1_S10000x1_1_0_0_1_n_n_wf : DotDims.WF S10000x32 S32x1 S10000x1 [1] [0] [0] [1] [] []
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x32.size a ≤ S100000x32.size a
  hwx0_2 : ∀ i : grid0.Coords, EltTy.bits .f32 = 32 ∨ (Rect.block (s := S100000x32) S10000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x1.size a ≤ S32x1.size a
  hwx1_1 : ∀ i : grid1.Coords, EltTy.bits .f32 = 32 ∨ (Rect.block (s := S32x1) S32x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S100000x1.size a
  hwx1_2 : ∀ i : grid1.Coords, EltTy.bits .f32 = 32 ∨ (Rect.block (s := S100000x1) S10000x1.size (cc1_transform_2 i) (hinb1_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S10000x32_S32x1_S10000x1_1_0_0_1_n_n : DotDims S10000x32 S32x1 S10000x1 where
  lhsContracting := [1]
  rhsContracting := [0]
  lhsNonContracting := [0]
  rhsNonContracting := [1]
  lhsBatch := []
  rhsBatch := []
  wf := dot_S10000x32_S32x1_S10000x1_1_0_0_1_n_n_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S32x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S10000x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x32 : Shape := ⟨2, ![128, 32]⟩
abbrev S32 : Shape := ⟨1, ![32]⟩
abbrev S32x1 : Shape := ⟨2, ![32, 1]⟩
abbrev S1 : Shape := ⟨1, ![1]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x32 : Shape := ⟨2, ![100000, 32]⟩
abbrev S3300000x32 : Shape := ⟨2, ![3300000, 32]⟩
abbrev S1x32 : Shape := ⟨2, ![1, 32]⟩
abbrev S100000x1 : Shape := ⟨2, ![100000, 1]⟩
abbrev S1x1 : Shape := ⟨2, ![1, 1]⟩

abbrev nBuf : Space → Nat
  | .hbm => 90
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x32, .f32⟩
  | .hbm, ⟨3, _⟩ => ⟨S32, .f32⟩
  | .hbm, ⟨4, _⟩ => ⟨S32x1, .f32⟩
  | .hbm, ⟨5, _⟩ => ⟨S1, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S3300000, .i32⟩
  | .hbm, ⟨30, _⟩ => ⟨S3300000, .i1⟩
  | .hbm, ⟨31, _⟩ => ⟨S_, .i32⟩
  | .hbm, ⟨32, _⟩ => ⟨S3300000, .i32⟩
  | .hbm, ⟨33, _⟩ => ⟨S3300000, .i32⟩
  | .hbm, ⟨34, _⟩ => ⟨S3300000, .i32⟩
  | .hbm, ⟨35, _⟩ => ⟨S3300000x1, .i32⟩
  | .hbm, ⟨36, _⟩ => ⟨S3300000, .f32⟩
  | .hbm, ⟨37, _⟩ => ⟨S_, .i32⟩
  | .hbm, ⟨38, _⟩ => ⟨S3300000, .i32⟩
  | .hbm, ⟨39, _⟩ => ⟨S3300000, .i1⟩
  | .hbm, ⟨40, _⟩ => ⟨S_, .i32⟩
  | .hbm, ⟨41, _⟩ => ⟨S3300000, .i32⟩
  | .hbm, ⟨42, _⟩ => ⟨S3300000, .i32⟩
  | .hbm, ⟨43, _⟩ => ⟨S3300000, .i32⟩
  | .hbm, ⟨44, _⟩ => ⟨S3300000x1, .i32⟩
  | .hbm, ⟨45, _⟩ => ⟨S3300000, .f32⟩
  | .hbm, ⟨46, _⟩ => ⟨S3300000, .f32⟩
  | .hbm, ⟨47, _⟩ => ⟨S100000x32, .f32⟩
  | .hbm, ⟨48, _⟩ => ⟨S_, .i32⟩
  | .hbm, ⟨49, _⟩ => ⟨S3300000, .i32⟩
  | .hbm, ⟨50, _⟩ => ⟨S3300000, .i1⟩
  | .hbm, ⟨51, _⟩ => ⟨S_, .i32⟩
  | .hbm, ⟨52, _⟩ => ⟨S3300000, .i32⟩
  | .hbm, ⟨53, _⟩ => ⟨S3300000, .i32⟩
  | .hbm, ⟨54, _⟩ => ⟨S3300000, .i32⟩
  | .hbm, ⟨55, _⟩ => ⟨S3300000x1, .i32⟩
  | .hbm, ⟨56, _⟩ => ⟨S3300000x32, .f32⟩
  | .hbm, ⟨57, _⟩ => ⟨S3300000x1, .f32⟩
  | .hbm, ⟨58, _⟩ => ⟨S3300000x32, .f32⟩
  | .hbm, ⟨59, _⟩ => ⟨S3300000x32, .f32⟩
  | .hbm, ⟨60, _⟩ => ⟨S_, .f32⟩
  | .hbm, ⟨61, _⟩ => ⟨S100000x32, .f32⟩
  | .hbm, ⟨62, _⟩ => ⟨S3300000x1, .i32⟩
  | .hbm, ⟨63, _⟩ => ⟨S100000x32, .f32⟩
  | .hbm, ⟨64, _⟩ => ⟨S1x32, .f32⟩
  | .hbm, ⟨65, _⟩ => ⟨S100000x32, .f32⟩
  | .hbm, ⟨66, _⟩ => ⟨S100000x32, .f32⟩
  | .hbm, ⟨67, _⟩ => ⟨S_, .f32⟩
  | .hbm, ⟨68, _⟩ => ⟨S100000x32, .f32⟩
  | .hbm, ⟨69, _⟩ => ⟨S100000x32, .f32⟩
  | .hbm, ⟨70, _⟩ => ⟨S100000x1, .f32⟩
  | .hbm, ⟨71, _⟩ => ⟨S_, .i32⟩
  | .hbm, ⟨72, _⟩ => ⟨S3300000, .i32⟩
  | .hbm, ⟨73, _⟩ => ⟨S3300000, .i1⟩
  | .hbm, ⟨74, _⟩ => ⟨S_, .i32⟩
  | .hbm, ⟨75, _⟩ => ⟨S3300000, .i32⟩
  | .hbm, ⟨76, _⟩ => ⟨S3300000, .i32⟩
  | .hbm, ⟨77, _⟩ => ⟨S3300000, .i32⟩
  | .hbm, ⟨78, _⟩ => ⟨S3300000x1, .i32⟩
  | .hbm, ⟨79, _⟩ => ⟨S3300000x1, .f32⟩
  | .hbm, ⟨80, _⟩ => ⟨S3300000x1, .f32⟩
  | .hbm, ⟨81, _⟩ => ⟨S3300000x1, .f32⟩
  | .hbm, ⟨82, _⟩ => ⟨S_, .f32⟩
  | .hbm, ⟨83, _⟩ => ⟨S100000x1, .f32⟩
  | .hbm, ⟨84, _⟩ => ⟨S3300000x1, .i32⟩
  | .hbm, ⟨85, _⟩ => ⟨S100000x1, .f32⟩
  | .hbm, ⟨86, _⟩ => ⟨S1x1, .f32⟩
  | .hbm, ⟨87, _⟩ => ⟨S100000x1, .f32⟩
  | .hbm, ⟨88, _⟩ => ⟨S100000x1, .f32⟩
  | .hbm, ⟨89, _⟩ => ⟨S100000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_c : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_c_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_c_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_9 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_call1_cst : Ref sig .tc := ⟨.hbm, 67, rfl⟩
abbrev main_call1_v0 : Ref sig .tc := ⟨.hbm, 68, rfl⟩
abbrev main_v49 : Ref sig .tc := ⟨.hbm, 69, rfl⟩
abbrev main_v50 : Ref sig .tc := ⟨.hbm, 70, rfl⟩
abbrev main_c_10 : Ref sig .tc := ⟨.hbm, 71, rfl⟩
abbrev main_v51 : Ref sig .tc := ⟨.hbm, 72, rfl⟩
abbrev main_v52 : Ref sig .tc := ⟨.hbm, 73, rfl⟩
abbrev main_c_11 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_12 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x32_S100000x32_1_0_0_1_n_n_wf : DotDims.WF S100000x128 S128x32 S100000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S100000x32_S32x1_S100000x1_1_0_0_1_n_n_wf : DotDims.WF S100000x32 S32x1 S100000x1 [1] [0] [0] [1] [] []
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf

class Facts : Prop extends Facts₀ where

variable [Facts]
-- ==== Proof.KernelRun.lean ====
/-
  The idealized kernel's run with its result named. @main is three stretches of host operations, the first
  row-tiled product, one stretch, the second row-tiled product, and a last stretch. The contents of every buffer
  at each of those boundaries are a fold from the launch memory: a stretch rewrites the buffers its operations
  write, a product's region rewrites its output array by what its ten row blocks write back and leaves the rest.
  Every weakly fair execution terminates with the result buffer at the last boundary's contents and the six
  argument arrays as launched.
-/
import proofs.«139345_j44143673868909_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer then holds what the
    last stretch of host operations leaves in it, and each argument array what it held at launch. -/
theorem run : θ_run defs (onTc (τ := τ) (main (F := F))) ⟨m, fun _ => 0, ρ⟩ (fun r => ∀ c : Dev nD,
      r.2.mem ((c.tc : Thread nD τ).loc main_v65) = W7 m ρ c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v65 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.RunValue

end
-- ==== Proof.GraphConv.lean ====
/-
  The graph side of the two-layer graph convolution, as functions of the edge list.

  Both programs build the same graph data from the 2 × 3,200,000 edge list: every node gets a self-loop, so an
  "edge" is one of 3,300,000 pairs (source, target) — the edge list's two rows, each followed by 0, 1, …, 99,999.
  A node's degree is the number of pairs that target it; its weight is degree^(-1/2) where the degree is positive
  and 0 elsewhere; a pair's weight is the product of its two ends' weights. A layer then takes a table of one row
  per node, gathers the source's row for every pair, scales it by the pair's weight, adds the scaled rows up per
  target, and adds the bias to every row. The first layer does this to 32-wide rows, the second to 1-wide rows, and
  the second layer's column is returned as a vector.

  Nothing here looks inside a gather or a scatter-add: the two programs apply literally the same operations to
  the same operands, so the equivalence only needs these stages as NAMED functions of the node table they are
  given — the tables are where the programs differ.
-/
import proofs.«139345_j44143673868909_1_alg».proof.Proof.Gen.KernelIdeal

noncomputable section

namespace Cert.GraphConv

open Cert.KernelIdeal Cert.KernelIdeal.Facts₀ Idealize.ShloMosaic

variable {F : FTy → Type} [FloatOps F]

/-- Row `r` of the edge list laid out as a vector, followed by the self-loops 0, 1, …, 99,999: the sources for
    row 0, the targets for row 1. -/
def sources (e : IVec S2x3200000 32) : IVec S3300000 32 :=
  concatenate S3300000 0
    [⟨S3200000, shapeCast S3200000 (extractStridedSlice S1x3200000 ![0, 0] e slices_S2x3200000_S1x3200000_0_0) shapeCasts_S1x3200000_S3200000⟩,
     ⟨S100000, iotaInDim S100000 32 0⟩] concatenates_S3200000_S100000_S3300000_d0

def targets (e : IVec S2x3200000 32) : IVec S3300000 32 :=
  concatenate S3300000 0
    [⟨S3200000, shapeCast S3200000 (extractStridedSlice S1x3200000 ![1, 0] e slices_S2x3200000_S1x3200000_1_0) shapeCasts_S1x3200000_S3200000⟩,
     ⟨S100000, iotaInDim S100000 32 0⟩] concatenates_S3200000_S100000_S3300000_d0

/-- A node number read the way an array index is: a negative one counts from the end. -/
def wrapped (v : IVec S3300000 32) : IVec S3300000 32 :=
  select (cmpi .slt v (broadcastInDim S3300000 ![] bcast_S_S3300000 (constantI S_ 32 0#32)))
    (addi v (broadcastInDim S3300000 ![] bcast_S_S3300000 (constantI S_ 32 100000#32))) v

/-- A vector of node numbers as a one-column matrix: the form the gathers and scatter-adds take their indices in. -/
def column (v : IVec S3300000 32) : IVec S3300000x1 32 :=
  broadcastInDim S3300000x1 ![0] bcast_S3300000_S3300000x1_0 v

/-- A node's degree: one for every pair that targets it, added into zero. -/
def degree (e : IVec S2x3200000 32) : FVec F S100000 .f32 :=
  Host.scatterAdd scatter_S100000_S3300000x1_S3300000_n_0_0_1
    (broadcastInDim S100000 ![] bcast_S_S100000 (constant S_ .f32 0x00000000#32))
    (column (targets e))
    (broadcastInDim S3300000 ![] bcast_S_S3300000 (constant S_ .f32 0x3F800000#32))

/-- A node's weight: degree^(-1/2) where the degree is positive, zero elsewhere. -/
def nodeWeight (e : IVec S2x3200000 32) : FVec F S100000 .f32 :=
  select (cmpf (F := F) .ogt (degree e) (broadcastInDim S100000 ![] bcast_S_S100000 (constant S_ .f32 0x00000000#32)))
    (Host.powf (degree e) (broadcastInDim S100000 ![] bcast_S_S100000 (constant S_ .f32 0xBF000000#32)))
    (broadcastInDim S100000 ![] bcast_S_S100000 (constant S_ .f32 0x00000000#32))

/-- A pair's weight: the product of its source's and its target's weights. -/
def pairWeight (e : IVec S2x3200000 32) : FVec F S3300000 .f32 :=
  mulf (Host.gather gather_S100000_S3300000x1_S3300000_n_0_n_n_0_1_1 (nodeWeight e) (column (wrapped (sources e))))
    (Host.gather gather_S100000_S3300000x1_S3300000_n_0_n_n_0_1_1 (nodeWeight e) (column (wrapped (targets e))))

/-- The first layer's aggregation of a table `p` of 32-wide rows: for every pair the source's row scaled by the
    pair's weight, added up per target, plus the bias `b` on every row. -/
def aggregate32 (e : IVec S2x3200000 32) (p : FVec F S100000x32 .f32) (b : FVec F S32 .f32) : FVec F S100000x32 .f32 :=
  addf
    (Host.scatterAdd scatter_S100000x32_S3300000x1_S3300000x32_1_0_0_1
      (broadcastInDim S100000x32 ![] bcast_S_S100000x32 (constant S_ .f32 0x00000000#32))
      (column (targets e))
      (mulf (Host.gather gather_S100000x32_S3300000x1_S3300000x32_1_0_n_n_0_1_132 p (column (wrapped (sources e))))
        (broadcastInDim S3300000x32 ![0, 1] bcast_S3300000x1_S3300000x32_0_1
          (broadcastInDim S3300000x1 ![0] bcast_S3300000_S3300000x1_0 (pairWeight e)))))
    (broadcastInDim S100000x32 ![0, 1] bcast_S1x32_S100000x32_0_1 (broadcastInDim S1x32 ![1] bcast_S32_S1x32_1 b))

/-- The second layer's aggregation of a table `p` of 1-wide rows, the same way, returned as a vector. -/
def aggregate1 (e : IVec S2x3200000 32) (p : FVec F S100000x1 .f32) (b : FVec F S1 .f32) : FVec F S100000 .f32 :=
  shapeCast S100000
    (addf
      (Host.scatterAdd scatter_S100000x1_S3300000x1_S3300000x1_1_0_0_1
        (broadcastInDim S100000x1 ![] bcast_S_S100000x1 (constant S_ .f32 0x00000000#32))
        (column (targets e))
        (mulf (Host.gather gather_S100000x1_S3300000x1_S3300000x1_1_0_n_n_0_1_11 p (column (wrapped (sources e))))
          (broadcastInDim S3300000x1 ![0] bcast_S3300000_S3300000x1_0 (pairWeight e))))
      (broadcastInDim S100000x1 ![0, 1] bcast_S1x1_S100000x1_0_1 (broadcastInDim S1x1 ![1] bcast_S1_S1x1_1 b)))
    shapeCasts_S100000x1_S100000

end Cert.GraphConv

end
-- ==== Proof.KernelStages.lean ====
/-
  The idealized kernel's buffer contents at the boundaries of its two row-tiled products, read as the stages of
  the graph convolution.

  Before the first product the host operations compute the graph data from the edge list alone: the sources, the
  targets and the pairs' weights. Nothing later writes those three buffers, nor the argument arrays, so every later
  boundary finds them as they were. Between the products the host operations aggregate the first product's table
  (32-wide rows) and add the first bias: that is the table the second product is given. After the second product
  the host operations aggregate its table (1-wide rows), add the second bias and return the column as a vector.
-/
import proofs.«139345_j44143673868909_1_alg».proof.Proof.Gen.KernelIdeal.Frame
import proofs.«139345_j44143673868909_1_alg».proof.Proof.GraphConv

set_option maxRecDepth 16384

noncomputable section

namespace Cert.KernelIdeal.Stages

open Cert.KernelIdeal Cert.KernelIdeal.Gen Cert.GraphConv
open Idealize.ShloMosaic Idealize.ShloMosaic.TcCoe Idealize.ShloMosaic.StableHlo Idealize.SL.Sem

variable {F : FTy → Type} [FloatOps F]
variable (m : (ℓ : Loc nD τ sig) → Buf (Elt F) ℓ) (ρ : Dev nD → PrngReg)

/-! ## At the first product's entry: the graph data, and the arguments as launched -/

set_option maxHeartbeats 4000000 in
/-- At the first product's entry the buffer holds the edge list's `sources`. -/
theorem entry0_sources (c : Dev nD) : W3 m ρ c (Proc.devRef .tc main_v3) = sources (m ((c.tc : Thread nD τ).loc main_arg1)) := by
  show after hostOps0_2 (after hostOps0_1 (after hostOps0 (W0 m ρ c))) (Proc.devRef .tc main_v3) = _
  simp only [hostOps0, hostOps0_1, hostOps0_2]
  after_results_simp
  rfl

set_option maxHeartbeats 4000000 in
/-- At the first product's entry the buffer holds the edge list's `targets`. -/
theorem entry0_targets (c : Dev nD) : W3 m ρ c (Proc.devRef .tc main_v6) = targets (m ((c.tc : Thread nD τ).loc main_arg1)) := by
  show after hostOps0_2 (after hostOps0_1 (after hostOps0 (W0 m ρ c))) (Proc.devRef .tc main_v6) = _
  simp only [hostOps0, hostOps0_1, hostOps0_2]
  after_results_simp
  rfl

set_option maxHeartbeats 4000000 in
/-- At the first product's entry the buffer holds the edge list's `pairWeight`. -/
theorem entry0_pairWeight (c : Dev nD) : W3 m ρ c (Proc.devRef .tc main_v31) = pairWeight (F := F) (m ((c.tc : Thread nD τ).loc main_arg1)) := by
  show after hostOps0_2 (after hostOps0_1 (after hostOps0 (W0 m ρ c))) (Proc.devRef .tc main_v31) = _
  simp only [hostOps0, hostOps0_1, hostOps0_2]
  after_results_simp
  rfl

set_option maxHeartbeats 4000000 in
/-- No host operation before the first product writes an argument array. -/
theorem entry0_main_arg0 (c : Dev nD) : W3 m ρ c (Proc.devRef .tc main_arg0) = m ((c.tc : Thread nD τ).loc main_arg0) := by
  show after hostOps0_2 (after hostOps0_1 (after hostOps0 (W0 m ρ c))) (Proc.devRef .tc main_arg0) = _
  simp only [hostOps0, hostOps0_1, hostOps0_2]
  after_results_simp

set_option maxHeartbeats 4000000 in
/-- No host operation before the first product writes an argument array. -/
theorem entry0_main_arg2 (c : Dev nD) : W3 m ρ c (Proc.devRef .tc main_arg2) = m ((c.tc : Thread nD τ).loc main_arg2) := by
  show after hostOps0_2 (after hostOps0_1 (after hostOps0 (W0 m ρ c))) (Proc.devRef .tc main_arg2) = _
  simp only [hostOps0, hostOps0_1, hostOps0_2]
  after_results_simp

set_option maxHeartbeats 4000000 in
/-- No host operation before the first product writes an argument array. -/
theorem entry0_main_arg3 (c : Dev nD) : W3 m ρ c (Proc.devRef .tc main_arg3) = m ((c.tc : Thread nD τ).loc main_arg3) := by
  show after hostOps0_2 (after hostOps0_1 (after hostOps0 (W0 m ρ c))) (Proc.devRef .tc main_arg3) = _
  simp only [hostOps0, hostOps0_1, hostOps0_2]
  after_results_simp

set_option maxHeartbeats 4000000 in
/-- No host operation before the first product writes an argument array. -/
theorem entry0_main_arg4 (c : Dev nD) : W3 m ρ c (Proc.devRef .tc main_arg4) = m ((c.tc : Thread nD τ).loc main_arg4) := by
  show after hostOps0_2 (after hostOps0_1 (after hostOps0 (W0 m ρ c))) (Proc.devRef .tc main_arg4) = _
  simp only [hostOps0, hostOps0_1, hostOps0_2]
  after_results_simp

set_option maxHeartbeats 4000000 in
/-- No host operation before the first product writes an argument array. -/
theorem entry0_main_arg5 (c : Dev nD) : W3 m ρ c (Proc.devRef .tc main_arg5) = m ((c.tc : Thread nD τ).loc main_arg5) := by
  show after hostOps0_2 (after hostOps0_1 (after hostOps0 (W0 m ρ c))) (Proc.devRef .tc main_arg5) = _
  simp only [hostOps0, hostOps0_1, hostOps0_2]
  after_results_simp

/-! ## At the first product's exit: its table, and everything else as it entered -/

/-- The first product's output buffer holds what its ten row blocks wrote back. -/
theorem exit0_table (c : Dev nD) : W4 m ρ c (Proc.devRef .tc main_v32) = (dat0 (V3 m ρ) c).arrAt 2 cfg0.N :=
  W4_arr m ρ c 2

theorem exit0_sources (c : Dev nD) : W4 m ρ c (Proc.devRef .tc main_v3) = sources (m ((c.tc : Thread nD τ).loc main_arg1)) :=
  (W4_of_ne m ρ c main_v3 (by decide)).trans (entry0_sources m ρ c)
theorem exit0_targets (c : Dev nD) : W4 m ρ c (Proc.devRef .tc main_v6) = targets (m ((c.tc : Thread nD τ).loc main_arg1)) :=
  (W4_of_ne m ρ c main_v6 (by decide)).trans (entry0_targets m ρ c)
theorem exit0_pairWeight (c : Dev nD) : W4 m ρ c (Proc.devRef .tc main_v31) = pairWeight (F := F) (m ((c.tc : Thread nD τ).loc main_arg1)) :=
  (W4_of_ne m ρ c main_v31 (by decide)).trans (entry0_pairWeight m ρ c)
theorem exit0_main_arg3 (c : Dev nD) : W4 m ρ c (Proc.devRef .tc main_arg3) = m ((c.tc : Thread nD τ).loc main_arg3) :=
  (W4_of_ne m ρ c main_arg3 (by decide)).trans (entry0_main_arg3 m ρ c)
theorem exit0_main_arg4 (c : Dev nD) : W4 m ρ c (Proc.devRef .tc main_arg4) = m ((c.tc : Thread nD τ).loc main_arg4) :=
  (W4_of_ne m ρ c main_arg4 (by decide)).trans (entry0_main_arg4 m ρ c)
theorem exit0_main_arg5 (c : Dev nD) : W4 m ρ c (Proc.devRef .tc main_arg5) = m ((c.tc : Thread nD τ).loc main_arg5) :=
  (W4_of_ne m ρ c main_arg5 (by decide)).trans (entry0_main_arg5 m ρ c)

/-! ## At the second product's entry: the aggregated table, and the graph data carried over -/

set_option maxHeartbeats 4000000 in
theorem entry1_sources (c : Dev nD) : W5 m ρ c (Proc.devRef .tc main_v3) = sources (m ((c.tc : Thread nD τ).loc main_arg1)) := by
  show after hostOps1 (W4 m ρ c) (Proc.devRef .tc main_v3) = _
  simp only [hostOps1]
  after_results_simp
  exact exit0_sources m ρ c

set_option maxHeartbeats 4000000 in
theorem entry1_targets (c : Dev nD) : W5 m ρ c (Proc.devRef .tc main_v6) = targets (m ((c.tc : Thread nD τ).loc main_arg1)) := by
  show after hostOps1 (W4 m ρ c) (Proc.devRef .tc main_v6) = _
  simp only [hostOps1]
  after_results_simp
  exact exit0_targets m ρ c

set_option maxHeartbeats 4000000 in
theorem entry1_pairWeight (c : Dev nD) : W5 m ρ c (Proc.devRef .tc main_v31) = pairWeight (F := F) (m ((c.tc : Thread nD τ).loc main_arg1)) := by
  show after hostOps1 (W4 m ρ c) (Proc.devRef .tc main_v31) = _
  simp only [hostOps1]
  after_results_simp
  exact exit0_pairWeight m ρ c

set_option maxHeartbeats 4000000 in
theorem entry1_main_arg4 (c : Dev nD) : W5 m ρ c (Proc.devRef .tc main_arg4) = m ((c.tc : Thread nD τ).loc main_arg4) := by
  show after hostOps1 (W4 m ρ c) (Proc.devRef .tc main_arg4) = _
  simp only [hostOps1]
  after_results_simp
  exact exit0_main_arg4 m ρ c

set_option maxHeartbeats 4000000 in
theorem entry1_main_arg5 (c : Dev nD) : W5 m ρ c (Proc.devRef .tc main_arg5) = m ((c.tc : Thread nD τ).loc main_arg5) := by
  show after hostOps1 (W4 m ρ c) (Proc.devRef .tc main_arg5) = _
  simp only [hostOps1]
  after_results_simp
  exact exit0_main_arg5 m ρ c

set_option maxHeartbeats 4000000 in
/-- The table the second product is given: the first product's table aggregated over the graph, plus the first bias. -/
theorem entry1_hidden (c : Dev nD) :
    W5 m ρ c (Proc.devRef .tc main_v48)
      = aggregate32 (m ((c.tc : Thread nD τ).loc main_arg1)) ((dat0 (V3 m ρ) c).arrAt 2 cfg0.N) (m ((c.tc : Thread nD τ).loc main_arg3)) := by
  show after hostOps1 (W4 m ρ c) (Proc.devRef .tc main_v48) = _
  simp only [hostOps1]
  after_results_simp
  rw [exit0_table, exit0_sources, exit0_targets, exit0_pairWeight, exit0_main_arg3]
  rfl

/-! ## At the second product's exit, and the result -/

/-- The second product's output buffer holds what its ten row blocks wrote back. -/
theorem exit1_table (c : Dev nD) : W6 m ρ c (Proc.devRef .tc main_v49) = (dat1 (V5 m ρ) c).arrAt 2 cfg1.N :=
  W6_arr m ρ c 2

theorem exit1_sources (c : Dev nD) : W6 m ρ c (Proc.devRef .tc main_v3) = sources (m ((c.tc : Thread nD τ).loc main_arg1)) :=
  (W6_of_ne m ρ c main_v3 (by decide)).trans (entry1_sources m ρ c)
theorem exit1_targets (c : Dev nD) : W6 m ρ c (Proc.devRef .tc main_v6) = targets (m ((c.tc : Thread nD τ).loc main_arg1)) :=
  (W6_of_ne m ρ c main_v6 (by decide)).trans (entry1_targets m ρ c)
theorem exit1_pairWeight (c : Dev nD) : W6 m ρ c (Proc.devRef .tc main_v31) = pairWeight (F := F) (m ((c.tc : Thread nD τ).loc main_arg1)) :=
  (W6_of_ne m ρ c main_v31 (by decide)).trans (entry1_pairWeight m ρ c)
theorem exit1_main_arg5 (c : Dev nD) : W6 m ρ c (Proc.devRef .tc main_arg5) = m ((c.tc : Thread nD τ).loc main_arg5) :=
  (W6_of_ne m ρ c main_arg5 (by decide)).trans (entry1_main_arg5 m ρ c)

set_option maxHeartbeats 4000000 in
/-- THE RESULT: the second product's table aggregated over the graph, plus the second bias, as a vector. -/
theorem result (c : Dev nD) :
    W7 m ρ c (Proc.devRef .tc main_v65)
      = aggregate1 (m ((c.tc : Thread nD τ).loc main_arg1)) ((dat1 (V5 m ρ) c).arrAt 2 cfg1.N) (m ((c.tc : Thread nD τ).loc main_arg5)) := by
  show after hostOps2 (W6 m ρ c) (Proc.devRef .tc main_v65) = _
  simp only [hostOps2]
  after_results_simp
  rw [exit1_table, exit1_sources, exit1_targets, exit1_pairWeight, exit1_main_arg5]
  rfl

end Cert.KernelIdeal.Stages

end
-- ==== Proof.LibPlainMatmul.lean ====
import Idealize.ShloMosaic.Lib.ValueIdx
import Idealize.ShloMosaic.Lib.StackMember
import Idealize.ShloMosaic.PureOps.Ideal.Laws

/-! # A plain matrix product into zero, read at an index

For an m×k matrix A and a k×n matrix B, the product that contracts A's second axis with B's first, with no batch
axis, has at row a and column b the entry  ∑ c, A(a, c) · B(c, b).  At the ideal values this holds of the matrix
unit's product accumulated into the zero splat exactly as it holds of the host's product: the accumulator
contributes the extended real 0, and neither rounds nor orders the sum. The host's form is the library's
(`StackMember.dotGeneral_plain_apply`); the matrix unit's form is derived from it here, since both read at an index
as the same sum over the contraction index. -/

noncomputable section

namespace Cert.LibPlainMatmul

open Idealize.ShloMosaic Idealize.ShloMosaic.ValueIdx

/-- The matrix unit's plain product into the zero splat, at row `a` and column `b`, is the sum over the contracted
    coordinate of the products of the entries. At the ideal values. -/
theorem matmul_plain_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant (F := Ideal) ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec .single A B (ix2 a b)).symm.trans
      (StackMember.dotGeneral_plain_apply prec A B a b))

/-- The host's plain product at row `a` and column `b`, restated beside it. -/
theorem dotGeneral_plain_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    Host.dotGeneral (DotDims.plain m k n) prec A B (ix2 a b) = ∑ c : Fin k, A (ix2 a c) * B (ix2 c b) :=
  StackMember.dotGeneral_plain_apply prec A B a b

end Cert.LibPlainMatmul

end
-- ==== Proof.Products.lean ====
/-
  The two row-tiled products of the idealized kernel, each as ONE function of its two operand arrays.

  A product's region walks ten grid points. At point t it stages rows 10000·t … 10000·t + 9999 of the left operand
  and the whole right operand (a weight matrix small enough to stay resident), multiplies them on the matrix unit
  into a zero accumulator, and writes the 10,000 resulting rows back to the same rows of the output. At the ideal
  values a change of float format is the identity and the matrix unit's product is the exact sum over the
  contracted index, so entry (r, n) of the output is  ∑ k, left(r, k) · right(k, n)  whatever block r falls in.
  The second product rectifies its left operand first: max(·, 0) entry by entry.
-/
import proofs.«139345_j44143673868909_1_alg».proof.Proof.Gen.KernelIdeal.Frame
import proofs.«139345_j44143673868909_1_alg».proof.Proof.LibPlainMatmul
import Idealize.ShloMosaic.Lib.Pipeline.Value
import Idealize.ShloMosaic.Lib.ValueIdx

set_option maxRecDepth 16384

noncomputable section

namespace Cert.KernelIdeal.Products

open Cert.KernelIdeal Cert.KernelIdeal.Gen Idealize.ShloMosaic Idealize.ShloMosaic.TcCoe Idealize.ShloMosaic.ValueIdx Idealize.SL.Sem
open Idealize.ShloMosaic.Pipeline (Dat)

/-! ## The two functions -/

/-- Entry (r, n) of the node features times the first weight matrix. -/
def product32 (x : FVec Ideal S100000x128 .f32) (w : FVec Ideal S128x32 .f32) : FVec Ideal S100000x32 .f32 :=
  fun i => ∑ k : Fin 128, x (ix2 (i 0) k) * w (ix2 k (i 1))

/-- Entry (r, 0) of the rectified hidden table times the second weight matrix. -/
def reluProduct1 (h : FVec Ideal S100000x32 .f32) (w : FVec Ideal S32x1 .f32) : FVec Ideal S100000x1 .f32 :=
  fun i => ∑ k : Fin 32, max (h (ix2 (i 0) k)) (Ideal.ofBits .f32 0x00000000#32) * w (ix2 k (i 1))

/-! ## The bodies' stored blocks at an entry -/

/-- The first body's stored block at (a, b): the sum over the contracted index of the loaded blocks' entries. -/
theorem pay0_apply (x0 : Vec Ideal S10000x128 .f32) (x1 : Vec Ideal S128x32 .f32) (a : Fin 10000) (b : Fin 32) :
    k0_pay1 x0 x1 (ix2 a b) = ∑ k : Fin 128, x0 (ix2 a k) * x1 (ix2 k b) := by
  unfold k0_pay1
  exact Cert.LibPlainMatmul.matmul_plain_apply (m := 10000) (k := 128) (n := 32) none _ _ a b

/-- The second body's stored block at (a, b): the same, with the left block rectified entry by entry. -/
theorem pay1_apply (x0 : Vec Ideal S10000x32 .f32) (x1 : Vec Ideal S32x1 .f32) (a : Fin 10000) (b : Fin 1) :
    k1_pay1 x0 x1 (ix2 a b) = ∑ k : Fin 32, max (x0 (ix2 a k)) (Ideal.ofBits .f32 0x00000000#32) * x1 (ix2 k b) := by
  have e : shapeCast S10000x32 x0 shapeCasts_S10000x32_S10000x32 = x0 := Idealize.ShloMosaic.shapeCast_self x0 _
  unfold k1_pay1
  rw [e]
  exact Cert.LibPlainMatmul.matmul_plain_apply (m := 10000) (k := 32) (n := 1) none _ _ a b

theorem hz : (![0, 0] : Fin 2 → Nat) = fun _ => 0 := funext fun a => by fin_cases a <;> rfl

variable (V : (c : Dev nD) → (b : Ref sig .tc) → Buf (Elt Ideal) ((c : Thread nD τ).loc b))

/-! ## Product one: the node features times the first weight matrix -/

/-- Over the ten points of the grid: the row window and the output window move together, one block of 10,000 rows
    per point, in the point's order; the weight window stays on its one block; no window moves along columns. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) = t.val :=
  (by decide +kernel : ∀ t : Fin grid0.N, _)

/-- An entry of the body's stored block, where the block's rows are rows of `A` from some row on and its weight
    block is all of `B`: the entry of `product32 A B` in that row. -/
theorem pay0_at (A : FVec Ideal S100000x128 .f32) (B : FVec Ideal S128x32 .f32) (x0 : Vec Ideal S10000x128 .f32) (x1 : Vec Ideal S128x32 .f32)
    (j : S10000x32.Idx) (i : S100000x32.Idx)
    (h0 : ∀ k : Fin 128, x0 (ix2 (j 0) k) = A (ix2 (i 0) k)) (h1 : ∀ k : Fin 128, x1 (ix2 k (j 1)) = B (ix2 k (i 1))) :
    k0_pay1 x0 x1 j = product32 A B i := by
  refine (congrArg (k0_pay1 x0 x1) (eq_ix2 j)).trans ((pay0_apply x0 x1 (j 0) (j 1)).trans ?_)
  show _ = ∑ k : Fin 128, _
  exact Finset.sum_congr rfl fun k _ => by rw [h0 k, h1 k]

/-- WHAT POINT `t` WRITES BACK is block `t` of `product32` of the two operand arrays as the region finds them. -/
theorem flushed0_eq (c : Dev nD) (t : Fin cfg0.N) :
    (dat0 V c).flushed 2 t = ((cfg0.win 2).blk t).view.read (Elt Ideal) (product32 (V c main_arg0) (V c main_arg2)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x32) hz]
  obtain ⟨e0, e1, e2, e3, e4, e5⟩ := idx_facts0 t
  funext j
  show k0_pay1 (iblk0 V c 0 t) (iblk0 V c 1 t) j = product32 (V c main_arg0) (V c main_arg2) (((cfg0.win 2).blk t).view.emb j)
  refine pay0_at (V c main_arg0) (V c main_arg2) (iblk0 V c 0 t) (iblk0 V c 1 t) j (((cfg0.win 2).blk t).view.emb j) (fun k => ?_) (fun k => ?_)
  · show V c main_arg0 (((cfg0.win 0).blk t).view.emb (ix2 (j 0) k)) = V c main_arg0 (ix2 ((((cfg0.win 2).blk t).view.emb j) 0) k)
    refine congrArg (V c main_arg0) ?_
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  · show V c main_arg2 (((cfg0.win 1).blk t).view.emb (ix2 k (j 1))) = V c main_arg2 (ix2 k ((((cfg0.win 2).blk t).view.emb j) 1))
    refine congrArg (V c main_arg2) ?_
    funext a; apply Fin.ext
    match a with
    | ⟨0, _⟩ => show win0_1.index t (0 : Fin 2) * 128 + 1 * k.val = k.val; omega
    | ⟨1, _⟩ => show win0_1.index t (1 : Fin 2) * 32 + 1 * (j 1).val = win0_2.index t (1 : Fin 2) * 32 + 1 * (j 1).val; omega

/-- An index of the output array is in point `t`'s block iff each coordinate is in the block's range on its axis. -/
theorem mem_blk0 (t : Fin cfg0.N) (i : S100000x32.Idx) :
    i ∈ ((cfg0.win 2).blk t).view.set ↔ ∀ a : Fin 2, win0_2.index t a * S10000x32.size a ≤ (i a).val ∧ (i a).val < win0_2.index t a * S10000x32.size a + S10000x32.size a := by
  show i ∈ ((View.whole main_v32).slice (win0_2.rect t)).set ↔ _
  rw [View.set_slice_whole, Rect.mem_set_unit]
  exact Iff.rfl

/-- Row `r` of the output array is in the block of the point `r / 10000`: the ten blocks tile the array. -/
theorem cover0 (i : S100000x32.Idx) : ∃ t : Fin cfg0.N, (cfg0.win 2).flush t = true ∧ i ∈ ((cfg0.win 2).blk t).view.set := by
  have hi0 : (i 0).val < 100000 := (i 0).isLt
  have hi1 : (i 1).val < 32 := (i 1).isLt
  have hN : grid0.N = 10 := N_0
  obtain ⟨t, ht⟩ : ∃ t : Fin cfg0.N, t.val = (i 0).val / 10000 :=
    ⟨⟨(i 0).val / 10000, by show (i 0).val / 10000 < grid0.N; rw [hN]; omega⟩, rfl⟩
  obtain ⟨e0, e1, e2, e3, e4, e5⟩ := idx_facts0 t
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 32 ≤ (i 1).val ∧ (i 1).val < win0_2.index t (1 : Fin 2) * 32 + 32; omega

/-- THE ARRAY after the region: `product32` of the two operand arrays as the region finds them. -/
theorem final0 (c : Dev nD) : (dat0 V c).arrAt 2 cfg0.N = product32 (V c main_arg0) (V c main_arg2) :=
  (dat0 V c).arrAt_eq_of_cover 2 (product32 (V c main_arg0) (V c main_arg2)) (fun t _ => flushed0_eq V c t) (cover0)

/-! ## Product two: the rectified hidden table times the second weight matrix -/

/-- Over the ten points of the grid: the row window and the output window move together, one block of 10,000 rows
    per point, in the point's order; the weight window stays on its one block; no window moves along columns. -/
theorem idx_facts1 : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) = t.val :=
  (by decide +kernel : ∀ t : Fin grid1.N, _)

/-- An entry of the body's stored block, where the block's rows are rows of `A` from some row on and its weight
    block is all of `B`: the entry of `reluProduct1 A B` in that row. -/
theorem pay1_at (A : FVec Ideal S100000x32 .f32) (B : FVec Ideal S32x1 .f32) (x0 : Vec Ideal S10000x32 .f32) (x1 : Vec Ideal S32x1 .f32)
    (j : S10000x1.Idx) (i : S100000x1.Idx)
    (h0 : ∀ k : Fin 32, x0 (ix2 (j 0) k) = A (ix2 (i 0) k)) (h1 : ∀ k : Fin 32, x1 (ix2 k (j 1)) = B (ix2 k (i 1))) :
    k1_pay1 x0 x1 j = reluProduct1 A B i := by
  refine (congrArg (k1_pay1 x0 x1) (eq_ix2 j)).trans ((pay1_apply x0 x1 (j 0) (j 1)).trans ?_)
  show _ = ∑ k : Fin 32, _
  exact Finset.sum_congr rfl fun k _ => by rw [h0 k, h1 k]

/-- WHAT POINT `t` WRITES BACK is block `t` of `reluProduct1` of the two operand arrays as the region finds them. -/
theorem flushed1_eq (c : Dev nD) (t : Fin cfg1.N) :
    (dat1 V c).flushed 2 t = ((cfg1.win 2).blk t).view.read (Elt Ideal) (reluProduct1 (V c main_v48) (V c main_arg4)) := by
  show (cfg1.win 2).cut (grid1.coords t) ((dat1 V c).after 2 t) = _
  rw [after1_2]
  unfold out1_2
  rw [View.canon_unit_zero hz]
  simp only [View.ld_unit_zero (S := S10000x32) hz, View.ld_unit_zero (S := S32x1) hz]
  obtain ⟨e0, e1, e2, e3, e4, e5⟩ := idx_facts1 t
  funext j
  show k1_pay1 (iblk1 V c 0 t) (iblk1 V c 1 t) j = reluProduct1 (V c main_v48) (V c main_arg4) (((cfg1.win 2).blk t).view.emb j)
  refine pay1_at (V c main_v48) (V c main_arg4) (iblk1 V c 0 t) (iblk1 V c 1 t) j (((cfg1.win 2).blk t).view.emb j) (fun k => ?_) (fun k => ?_)
  · show V c main_v48 (((cfg1.win 0).blk t).view.emb (ix2 (j 0) k)) = V c main_v48 (ix2 ((((cfg1.win 2).blk t).view.emb j) 0) k)
    refine congrArg (V c main_v48) ?_
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 32 + 1 * k.val = k.val; omega
  · show V c main_arg4 (((cfg1.win 1).blk t).view.emb (ix2 k (j 1))) = V c main_arg4 (ix2 k ((((cfg1.win 2).blk t).view.emb j) 1))
    refine congrArg (V c main_arg4) ?_
    funext a; apply Fin.ext
    match a with
    | ⟨0, _⟩ => show win1_1.index t (0 : Fin 2) * 32 + 1 * k.val = k.val; omega
    | ⟨1, _⟩ => show win1_1.index t (1 : Fin 2) * 1 + 1 * (j 1).val = win1_2.index t (1 : Fin 2) * 1 + 1 * (j 1).val; omega

/-- An index of the output array is in point `t`'s block iff each coordinate is in the block's range on its axis. -/
theorem mem_blk1 (t : Fin cfg1.N) (i : S100000x1.Idx) :
    i ∈ ((cfg1.win 2).blk t).view.set ↔ ∀ a : Fin 2, win1_2.index t a * S10000x1.size a ≤ (i a).val ∧ (i a).val < win1_2.index t a * S10000x1.size a + S10000x1.size a := by
  show i ∈ ((View.whole main_v49).slice (win1_2.rect t)).set ↔ _
  rw [View.set_slice_whole, Rect.mem_set_unit]
  exact Iff.rfl

/-- Row `r` of the output array is in the block of the point `r / 10000`: the ten blocks tile the array. -/
theorem cover1 (i : S100000x1.Idx) : ∃ t : Fin cfg1.N, (cfg1.win 2).flush t = true ∧ i ∈ ((cfg1.win 2).blk t).view.set := by
  have hi0 : (i 0).val < 100000 := (i 0).isLt
  have hi1 : (i 1).val < 1 := (i 1).isLt
  have hN : grid1.N = 10 := N_1
  obtain ⟨t, ht⟩ : ∃ t : Fin cfg1.N, t.val = (i 0).val / 10000 :=
    ⟨⟨(i 0).val / 10000, by show (i 0).val / 10000 < grid1.N; rw [hN]; omega⟩, rfl⟩
  obtain ⟨e0, e1, e2, e3, e4, e5⟩ := idx_facts1 t
  refine ⟨t, flush1_2 t, ?_⟩
  rw [mem_blk1]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 1 ≤ (i 1).val ∧ (i 1).val < win1_2.index t (1 : Fin 2) * 1 + 1; omega

/-- THE ARRAY after the region: `reluProduct1` of the two operand arrays as the region finds them. -/
theorem final1 (c : Dev nD) : (dat1 V c).arrAt 2 cfg1.N = reluProduct1 (V c main_v48) (V c main_arg4) :=
  (dat1 V c).arrAt_eq_of_cover 2 (reluProduct1 (V c main_v48) (V c main_arg4)) (fun t _ => flushed1_eq V c t) (cover1)

end Cert.KernelIdeal.Products

end
-- ==== Proof.RefStages.lean ====
/-
  The idealized reference's result, read as the stages of the graph convolution.

  The reference is one straight line of host operations: the graph data from the edge list, the features times
  the first weight matrix, the first aggregation plus bias, max(·, 0), the product with the second weight matrix,
  the second aggregation plus bias, and the column returned as a vector. Its run states the result as one term of
  the argument arrays; that term is those stages composed, by unfolding the names.
-/
import proofs.«139345_j44143673868909_1_alg».proof.Proof.RefRun
import proofs.«139345_j44143673868909_1_alg».proof.Proof.GraphConv

noncomputable section

namespace Cert.ReferenceIdeal.Stages

open Cert.ReferenceIdeal Cert.ReferenceIdeal.Gen Cert.GraphConv
open Idealize.ShloMosaic Idealize.ShloMosaic.TcCoe Idealize.SL.Sem

variable {F : FTy → Type} [FloatOps F]

/-- The table the reference's second product is given: the first aggregation of the features times the first
    weight matrix, plus the first bias, rectified. -/
def hidden (x : FVec F S100000x128 .f32) (e : IVec S2x3200000 32) (w1 : FVec F S128x32 .f32) (b1 : FVec F S32 .f32) :
    FVec F S100000x32 .f32 :=
  maximumf (aggregate32 e (Host.dotGeneral dot_S100000x128_S128x32_S100000x32_1_0_0_1_n_n none x w1) b1)
    (broadcastInDim S100000x32 ![] Facts₀.bcast_S_S100000x32 (constant S_ .f32 0x00000000#32))

set_option maxRecDepth 16384 in
set_option maxHeartbeats 4000000 in
/-- The reference's result is the second aggregation of the rectified hidden table times the second weight matrix,
    plus the second bias. -/
theorem result (m : (ℓ : Loc nD τ sig) → Buf (Elt F) ℓ) (c : Dev nD) :
    ValueP.res_main_v66 m c
      = aggregate1 (m ((c.tc : Thread nD τ).loc main_arg1))
          (Host.dotGeneral dot_S100000x32_S32x1_S100000x1_1_0_0_1_n_n none
            (hidden (m ((c.tc : Thread nD τ).loc main_arg0)) (m ((c.tc : Thread nD τ).loc main_arg1))
              (m ((c.tc : Thread nD τ).loc main_arg2)) (m ((c.tc : Thread nD τ).loc main_arg3)))
            (m ((c.tc : Thread nD τ).loc main_arg4)))
          (m ((c.tc : Thread nD τ).loc main_arg5)) := by
  unfold ValueP.res_main_v66 hidden aggregate1 aggregate32 pairWeight nodeWeight degree column wrapped sources targets
  rfl

end Cert.ReferenceIdeal.Stages

end
-- ==== Proof.Bridge.lean ====
/-
  The two idealized programs compute one function of the arguments.

  Both are: the features times the first weight matrix; aggregated over the graph, plus the first bias; rectified;
  times the second weight matrix; aggregated over the graph, plus the second bias; returned as a vector. The kernel
  computes each product in ten blocks of rows on the matrix unit and rectifies inside the second product; the
  reference computes each product whole on the host and rectifies between them. At the ideal values entry (r, n) of
  either product is the same sum over the contracted index, so the programs differ in nothing.
-/
import proofs.«139345_j44143673868909_1_alg».proof.Proof.KernelStages
import proofs.«139345_j44143673868909_1_alg».proof.Proof.Products
import proofs.«139345_j44143673868909_1_alg».proof.Proof.RefStages

noncomputable section

namespace Cert.Bridge

open Cert.GraphConv Cert.KernelIdeal.Products
open Idealize.ShloMosaic Idealize.ShloMosaic.TcCoe Idealize.ShloMosaic.ValueIdx Idealize.SL.Sem

/-! ## The row-tiled products are the host's products -/

/-- Entry by entry, the first product is the host's contraction of the features' columns with the weights' rows. -/
theorem product32_eq (x : FVec Ideal Cert.KernelIdeal.S100000x128 .f32) (w : FVec Ideal Cert.KernelIdeal.S128x32 .f32) :
    product32 x w = Host.dotGeneral (F := Ideal) Cert.ReferenceIdeal.dot_S100000x128_S128x32_S100000x32_1_0_0_1_n_n none x w := by
  funext i
  exact ((congrArg (Host.dotGeneral (F := Ideal) Cert.ReferenceIdeal.dot_S100000x128_S128x32_S100000x32_1_0_0_1_n_n none x w) (eq_ix2 i)).trans
    (Cert.LibPlainMatmul.dotGeneral_plain_apply (m := 100000) (k := 128) (n := 32) none x w (i 0) (i 1))).symm

/-- Entry by entry, the second product is the host's contraction applied to the table rectified against the zero splat. -/
theorem reluProduct1_eq (h : FVec Ideal Cert.KernelIdeal.S100000x32 .f32) (w : FVec Ideal Cert.KernelIdeal.S32x1 .f32) :
    reluProduct1 h w
      = Host.dotGeneral (F := Ideal) Cert.ReferenceIdeal.dot_S100000x32_S32x1_S100000x1_1_0_0_1_n_n none
          (maximumf h (broadcastInDim Cert.ReferenceIdeal.S100000x32 ![] Cert.ReferenceIdeal.Facts₀.bcast_S_S100000x32 (constant (F := Ideal) Cert.ReferenceIdeal.S_ .f32 0x00000000#32))) w := by
  funext i
  exact ((congrArg (Host.dotGeneral (F := Ideal) Cert.ReferenceIdeal.dot_S100000x32_S32x1_S100000x1_1_0_0_1_n_n none
      (maximumf h (broadcastInDim Cert.ReferenceIdeal.S100000x32 ![] Cert.ReferenceIdeal.Facts₀.bcast_S_S100000x32 (constant (F := Ideal) Cert.ReferenceIdeal.S_ .f32 0x00000000#32))) w) (eq_ix2 i)).trans
    (Cert.LibPlainMatmul.dotGeneral_plain_apply (m := 100000) (k := 32) (n := 1) none
      (maximumf h (broadcastInDim Cert.ReferenceIdeal.S100000x32 ![] Cert.ReferenceIdeal.Facts₀.bcast_S_S100000x32 (constant (F := Ideal) Cert.ReferenceIdeal.S_ .f32 0x00000000#32))) w (i 0) (i 1))).symm

/-! ## The kernel's result -/

section Kernel

open Cert.KernelIdeal Cert.KernelIdeal.Gen

variable (m : (ℓ : Loc Cert.KernelIdeal.nD Cert.KernelIdeal.τ Cert.KernelIdeal.sig) → Buf (Elt Ideal) ℓ) (ρ : Dev Cert.KernelIdeal.nD → PrngReg)

/-- What the kernel's last stretch of host operations leaves in the result buffer, as a function of the arguments. -/
theorem kernel_value (c : Dev Cert.KernelIdeal.nD) :
    W7 m ρ c (Proc.devRef .tc Cert.KernelIdeal.main_v65)
      = aggregate1 (m ((c.tc : Thread Cert.KernelIdeal.nD Cert.KernelIdeal.τ).loc Cert.KernelIdeal.main_arg1))
        (reluProduct1 (aggregate32 (m ((c.tc : Thread Cert.KernelIdeal.nD Cert.KernelIdeal.τ).loc Cert.KernelIdeal.main_arg1)) (product32 (m ((c.tc : Thread Cert.KernelIdeal.nD Cert.KernelIdeal.τ).loc Cert.KernelIdeal.main_arg0)) (m ((c.tc : Thread Cert.KernelIdeal.nD Cert.KernelIdeal.τ).loc Cert.KernelIdeal.main_arg2))) (m ((c.tc : Thread Cert.KernelIdeal.nD Cert.KernelIdeal.τ).loc Cert.KernelIdeal.main_arg3))) (m ((c.tc : Thread Cert.KernelIdeal.nD Cert.KernelIdeal.τ).loc Cert.KernelIdeal.main_arg4)))
        (m ((c.tc : Thread Cert.KernelIdeal.nD Cert.KernelIdeal.τ).loc Cert.KernelIdeal.main_arg5)) := by
  have h0 : (dat0 (V3 m ρ) c).arrAt 2 cfg0.N = product32 (m ((c.tc : Thread Cert.KernelIdeal.nD Cert.KernelIdeal.τ).loc Cert.KernelIdeal.main_arg0)) (m ((c.tc : Thread Cert.KernelIdeal.nD Cert.KernelIdeal.τ).loc Cert.KernelIdeal.main_arg2)) := by
    rw [final0 (V3 m ρ) c]
    show product32 (W3 m ρ c (Proc.devRef .tc Cert.KernelIdeal.main_arg0)) (W3 m ρ c (Proc.devRef .tc Cert.KernelIdeal.main_arg2)) = _
    rw [Cert.KernelIdeal.Stages.entry0_main_arg0, Cert.KernelIdeal.Stages.entry0_main_arg2]
  have h1 : W5 m ρ c (Proc.devRef .tc Cert.KernelIdeal.main_v48)
      = aggregate32 (m ((c.tc : Thread Cert.KernelIdeal.nD Cert.KernelIdeal.τ).loc Cert.KernelIdeal.main_arg1)) (product32 (m ((c.tc : Thread Cert.KernelIdeal.nD Cert.KernelIdeal.τ).loc Cert.KernelIdeal.main_arg0)) (m ((c.tc : Thread Cert.KernelIdeal.nD Cert.KernelIdeal.τ).loc Cert.KernelIdeal.main_arg2))) (m ((c.tc : Thread Cert.KernelIdeal.nD Cert.KernelIdeal.τ).loc Cert.KernelIdeal.main_arg3)) := by
    rw [Cert.KernelIdeal.Stages.entry1_hidden, h0]
  have h2 : (dat1 (V5 m ρ) c).arrAt 2 cfg1.N
      = reluProduct1 (aggregate32 (m ((c.tc : Thread Cert.KernelIdeal.nD Cert.KernelIdeal.τ).loc Cert.KernelIdeal.main_arg1)) (product32 (m ((c.tc : Thread Cert.KernelIdeal.nD Cert.KernelIdeal.τ).loc Cert.KernelIdeal.main_arg0)) (m ((c.tc : Thread Cert.KernelIdeal.nD Cert.KernelIdeal.τ).loc Cert.KernelIdeal.main_arg2))) (m ((c.tc : Thread Cert.KernelIdeal.nD Cert.KernelIdeal.τ).loc Cert.KernelIdeal.main_arg3))) (m ((c.tc : Thread Cert.KernelIdeal.nD Cert.KernelIdeal.τ).loc Cert.KernelIdeal.main_arg4)) := by
    rw [final1 (V5 m ρ) c]
    show reluProduct1 (W5 m ρ c (Proc.devRef .tc Cert.KernelIdeal.main_v48)) (W5 m ρ c (Proc.devRef .tc Cert.KernelIdeal.main_arg4)) = _
    rw [h1, Cert.KernelIdeal.Stages.entry1_main_arg4]
  rw [Cert.KernelIdeal.Stages.result, h2]

end Kernel

/-! ## The reference's result -/

/-- The reference's result term is the same function of its own arguments. -/
theorem reference_value (m' : (ℓ : Loc Cert.ReferenceIdeal.nD Cert.ReferenceIdeal.τ Cert.ReferenceIdeal.sig) → Buf (Elt Ideal) ℓ) (c : Dev Cert.ReferenceIdeal.nD) :
    Cert.ReferenceIdeal.ValueP.res_main_v66 m' c
      = aggregate1 (m' ((c.tc : Thread Cert.ReferenceIdeal.nD Cert.ReferenceIdeal.τ).loc Cert.ReferenceIdeal.main_arg1))
        (reluProduct1 (aggregate32 (m' ((c.tc : Thread Cert.ReferenceIdeal.nD Cert.ReferenceIdeal.τ).loc Cert.ReferenceIdeal.main_arg1)) (product32 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2))) (m' ((c.tc : Thread Cert.ReferenceIdeal.nD Cert.ReferenceIdeal.τ).loc Cert.ReferenceIdeal.main_arg3))) (m' ((c.tc : Thread Cert.ReferenceIdeal.nD Cert.ReferenceIdeal.τ).loc Cert.ReferenceIdeal.main_arg4)))
        (m' ((c.tc : Thread Cert.ReferenceIdeal.nD Cert.ReferenceIdeal.τ).loc Cert.ReferenceIdeal.main_arg5)) := by
  rw [Cert.ReferenceIdeal.Stages.result]
  unfold Cert.ReferenceIdeal.Stages.hidden
  rw [← product32_eq, ← reluProduct1_eq]

end Cert.Bridge

end
-- ==== Proof.lean ====
/-
  Equivalence of a two-layer graph convolution kernel with its reference, over the extended reals.

  The kernel computes the two dense products of the network (node features times the first weight matrix; the
  rectified hidden table times the second weight matrix) in ten blocks of 10,000 rows each on the matrix unit, and
  everything irregular — degrees, the symmetric normalisation, gathering rows along edges, adding them up per
  target node, the biases — with host operations; the reference does all of it with host operations. The host
  parts of the two programs are the same operations on the same operands, so the programs can only differ in the
  two products, and at the ideal values those agree entry by entry: a change of float format is the identity, the
  matrix unit accumulates the exact sum into zero, and a row's entry does not depend on which block the row is in.
  No finiteness of the inputs is used: nothing is distributed, cancelled or reordered.

  The three frames: the two kernel programs' are generated; the reference has no kernel, and its frame is its run
  with the result dropped. The idealization rewrote nothing, so there is nothing to preserve.
-/
import proofs.«139345_j44143673868909_1_alg».proof.Defs
import proofs.«139345_j44143673868909_1_alg».proof.Proof.Gen.Kernel
import proofs.«139345_j44143673868909_1_alg».proof.Proof.Gen.Kernel.Frame
import proofs.«139345_j44143673868909_1_alg».proof.Proof.Gen.KernelIdeal
import proofs.«139345_j44143673868909_1_alg».proof.Proof.Gen.KernelIdeal.Frame
import proofs.«139345_j44143673868909_1_alg».proof.Proof.Gen.ReferenceIdeal
import proofs.«139345_j44143673868909_1_alg».proof.Proof.Gen.Pre_finite_inputs
import proofs.«139345_j44143673868909_1_alg».proof.Proof.KernelRun
import proofs.«139345_j44143673868909_1_alg».proof.Proof.RefRun
import proofs.«139345_j44143673868909_1_alg».proof.Proof.Bridge

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- From memories that agree on the six arguments, both programs end with the result buffer at one and the same
    function of the arguments, and the arguments unchanged. -/
theorem algebraic : Cert.algebraic_KernelIdeal_ReferenceIdeal := by
  intro m ρ m' ρ' _ hagree
  refine ⟨_, (θ_run Cert.KernelIdeal.defs _ _).mono
      (fun r h c => ⟨(h c).1.trans (Cert.Bridge.kernel_value m ρ c), (h c).2⟩) (Cert.KernelIdeal.RunValue.run m ρ), ?_⟩
  refine (θ_run Cert.ReferenceIdeal.defs _ _).mono (fun r h c => ⟨(h c).1.trans ?_, (h c).2⟩)
    (Cert.ReferenceIdeal.ValueP.run (F := Ideal) m' ρ')
  obtain ⟨a0, a1, a2, a3, a4, a5⟩ := hagree c
  rw [Cert.Bridge.reference_value m' c, a0, a1, a2, a3, a4, a5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
